-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S200x10000 : Shape := ⟨2, ![200, 10000]⟩
abbrev S200x128 : Shape := ⟨2, ![200, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S200x10000, .f32⟩
  | .local _ .vmem, ⟨5, _⟩ => ⟨S200x10000, .f32⟩
  | .local _ .vmem, ⟨6, _⟩ => ⟨S200x128, .f32⟩
  | .local _ .vmem, ⟨7, _⟩ => ⟨S200x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S200x10000_S200x10000_0_0 : ∀ a, (![0, 0] : Fin 2 → Nat) a + S200x10000.size a ≤ S200x10000.size a
  h_S200x10000 : 0 < S200x10000.numel
  shapeCasts_S200x10000_S200x10000 : S200x10000.ShapeCasts S200x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x128_S200x128_0_0 : ∀ a, (![0, 0] : Fin 2 → Nat) a + S200x128.size a ≤ S200x128.size a
  h_S200x128 : 0 < S200x128.numel
  shapeCasts_S10000x128_S1x10000x128 : S10000x128.ShapeCasts S1x10000x128
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x1x1, .f32⟩
  | .hbm, ⟨14, _⟩ => ⟨S1x10000x128, .f32⟩
  | .hbm, ⟨15, _⟩ => ⟨S1x10000x128, .f32⟩
  | .hbm, ⟨16, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Pieces.lean ====
/-
  What one run of the kernel body leaves behind, as values of what it found.

  The body has two cases. At the grid's first point it stores the feature table (a function of the feature block
  and the weight block) into the buffer it carries between points, reads that buffer back, and stores the strip
  computed from the adjacency strip, the table just stored, the bias row and the slope. At every later point it
  stores nothing into the carried buffer and computes the strip from whatever table the point before left there.
  Each store covers its whole buffer, so the buffer afterwards holds exactly the stored value, and every load reads
  a whole buffer, so it reads exactly the block that buffer holds.
-/
import proofs.«179306_g38981123178606_cont_sun_m_742_18_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every load and store of the body starts at the origin of its buffer. -/
theorem origin : (![0, 0] : Fin 2 → Nat) = fun _ => 0 := funext fun a => by fin_cases a <;> rfl

/-- First point: the carried buffer ends holding the feature table of the feature block and the weight block. -/
theorem table_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S200x10000 .f32) :
    sout0_A_0 c i arg1 harg1 arg2 harg2 arg3 harg3 arg4 harg4 arg5 harg5 arg6 harg6 arg7 harg7 hc0 x0 x1 x2 x3 x4 = k0_pay1 x0 x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero origin]
  simp only [View.readAt_eq_ld, harg1.read_unread, harg2.read_unread, View.ld_unit_zero (S := S10000x128) origin,
    View.ld_unit_zero (S := S128x128) origin]

/-- First point: the output strip is computed from the table stored a moment before. -/
theorem strip_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S200x10000 .f32) :
    out0_A_5 c i arg1 harg1 arg2 harg2 arg3 harg3 arg4 harg4 arg5 harg5 arg6 harg6 arg7 harg7 hc0 x0 x1 x2 x3 x4 = k0_pay2 x4 (k0_pay1 x0 x1) x2 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero origin, View.readCov_unit_zero (S := S10000x128) _ origin]
  simp only [View.readAt_eq_ld, harg1.read_unread, harg2.read_unread, harg3.read_unread, harg4.read_unread, harg5.read_unread,
    View.ld_unit_zero (S := S10000x128) origin, View.ld_unit_zero (S := S128x128) origin,
    View.ld_unit_zero (S := S200x10000) origin, View.ld_unit_zero (S := S1x128) origin, View.ld_unit_zero (S := S1x1) origin]

/-- Later points: the output strip is computed from the table `xs0` the point before left in the carried buffer. -/
theorem strip_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S1x1 .f32) (x4 : Vec F S200x10000 .f32) (xs0 : Vec F S10000x128 .f32) :
    out0_B_5 c i arg1 harg1 arg2 harg2 arg3 harg3 arg4 harg4 arg5 harg5 arg6 harg6 arg7 harg7 hc0 x0 x1 x2 x3 x4 xs0 = k0_pay2 x4 xs0 x2 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero origin]
  simp only [View.readAt_eq_ld, harg3.read_unread, harg4.read_unread, harg5.read_unread, harg7.read_unread,
    View.ld_unit_zero (S := S10000x128) origin, View.ld_unit_zero (S := S200x10000) origin,
    View.ld_unit_zero (S := S1x128) origin, View.ld_unit_zero (S := S1x1) origin]

end Cert.KernelIdeal.Pieces

end
-- ==== Proof.Carried.lean ====
/-
  What the carried buffer and the output strip hold after each grid point.

  The feature table is computed once, at the first of the 50 grid points, from the feature block and the weight
  block that point finds, and stored in the buffer the kernel keeps between points. No later point stores into that
  buffer, so by induction on the point it holds the same table after every point. Every point, the first included,
  computes its output strip from its own adjacency strip, that table, the bias row and the slope.
-/
import proofs.«179306_g38981123178606_cont_sun_m_742_18_alg».proof.Proof.Pieces

noncomputable section

namespace Cert.KernelIdeal.Carried

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- The grid's first point. -/
abbrev first : Fin cfg0.N := ⟨0, by rw [show cfg0.N = 50 from N_0]; decide⟩

/-- The feature table, of the feature block and the weight block the first point finds. -/
def table (c : Dev nD) : Vec F S10000x128 .f32 := k0_pay1 (iblk m c 0 first) (iblk m c 1 first)

/-- After every point the carried buffer holds the table: the first point stores it, no later point touches it. -/
theorem carried_eq (c : Dev nD) : ∀ (n : ℕ) (hn : n < cfg0.N), (outsAt0 m c n hn).2 = table m c
  | 0, hn => by
    rw [outsAt0_A m c ⟨0, hn⟩ rfl]
    dsimp only
    exact table_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩)
  | n + 1, hn => by
    have hN : cfg0.N = 50 := N_0
    have hB : ¬(⟨n + 1, hn⟩ : Fin cfg0.N).val % 50 = 0 := by dsimp only; omega
    rw [outsAt0_B m c ⟨n + 1, hn⟩ hB]
    dsimp only
    unfold sout0_B_0
    exact carried_eq c n _

/-- Every point's output strip: of its adjacency strip, the table, the bias row and the slope. -/
theorem strip_eq (c : Dev nD) (t : Fin cfg0.N) :
    (outsAt0 m c t.val t.isLt).1 = k0_pay2 (iblk m c 4 t) (table m c) (iblk m c 2 t) (iblk m c 3 t) := by
  have hN : cfg0.N = 50 := N_0
  by_cases h0 : t.val % 50 = 0
  · have ht : t = first := Fin.ext (by have := t.isLt; show t.val = 0; omega)
    subst ht
    rw [outsAt0_A m c first h0]
    dsimp only
    exact strip_first c (grid0.coords first) (ms0_0 first) (hs0_0 first) (ms0_1 first) (hs0_1 first) (ms0_2 first) (hs0_2 first) (ms0_3 first) (hs0_3 first) (ms0_4 first) (hs0_4 first) (ms0_5 first) (hs0_5 first) scM0_0 (Memref.isWhole_whole _) ((hcond0_0 first).mpr h0) (iblk m c 0 first) (iblk m c 1 first) (iblk m c 2 first) (iblk m c 3 first) (iblk m c 4 first)
  · rw [outsAt0_B m c t h0]
    dsimp only
    rw [carried_eq m c (t.val - 1) _]
    exact strip_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (table m c)

end Cert.KernelIdeal.Carried

end
-- ==== Proof.Spec.lean ====
/-
  The function both programs compute, stated once over the argument arrays.

  A graph-convolution layer on one graph of 10000 nodes with 128 input and 128 output features:
  the feature table `feat j o = ∑ d, seq (0, j, d) * W (o, d)` (each node's features against row `o` of the weight
  matrix), aggregated along the dense adjacency, `agg n o = (∑ j, adj (0, n, j) * feat j o) + bias o`, and then the
  parametric rectifier with the one shared slope `a`: `x` where `x > 0`, `a * x` elsewhere.

  Everything is over the extended reals; the two nested sums are taken in the same grouping on both sides, so no
  law beyond reindexing a finite sum is needed and no finiteness of the inputs is used.
-/
import Idealize.ShloMosaic.PureOps.Ideal.Laws
import Idealize.ShloMosaic.Lib.ValueIdx

noncomputable section

namespace Cert.GraphConv

open Idealize.ShloMosaic Idealize.ShloMosaic.ValueIdx

/-- Entry `(j, o)` of the feature table: node `j`'s feature row against row `o` of the weight matrix. -/
def feat (seq : (⟨3, ![1, 10000, 128]⟩ : Shape).Idx → Ideal .f32) (W : (⟨2, ![128, 128]⟩ : Shape).Idx → Ideal .f32)
    (j : Fin 10000) (o : Fin 128) : EReal :=
  ∑ d : Fin 128, seq (ix3 (0 : Fin 1) j d) * W (ix2 o d)

/-- Entry `(n, o)` before the activation: row `n` of the adjacency against column `o` of the feature table, plus the bias. -/
def agg (seq : (⟨3, ![1, 10000, 128]⟩ : Shape).Idx → Ideal .f32) (adj : (⟨3, ![1, 10000, 10000]⟩ : Shape).Idx → Ideal .f32)
    (W : (⟨2, ![128, 128]⟩ : Shape).Idx → Ideal .f32) (bias : (⟨1, ![128]⟩ : Shape).Idx → Ideal .f32)
    (n : Fin 10000) (o : Fin 128) : EReal :=
  (∑ j : Fin 10000, adj (ix3 (0 : Fin 1) n j) * feat seq W j o) + bias (ix1 o)

/-- The parametric rectifier with slope `a` on the non-positive side. -/
def act (a x : EReal) : EReal :=
  Scalar.select (Ideal.cmp .ogt x (Ideal.ofBits .f32 0x00000000#32)) x (a * x)

/-- The layer's result, entry by entry. -/
def layer (seq : (⟨3, ![1, 10000, 128]⟩ : Shape).Idx → Ideal .f32) (adj : (⟨3, ![1, 10000, 10000]⟩ : Shape).Idx → Ideal .f32)
    (W : (⟨2, ![128, 128]⟩ : Shape).Idx → Ideal .f32) (bias : (⟨1, ![128]⟩ : Shape).Idx → Ideal .f32)
    (a : (⟨1, ![1]⟩ : Shape).Idx → Ideal .f32) : (⟨3, ![1, 10000, 128]⟩ : Shape).Idx → Ideal .f32 :=
  fun i => act (a (ix1 (0 : Fin 1))) (agg seq adj W bias (i 1) (i 2))

/-- The same result laid out as the 10000 × 128 matrix the kernel writes before the last reshape. -/
def layer2 (seq : (⟨3, ![1, 10000, 128]⟩ : Shape).Idx → Ideal .f32) (adj : (⟨3, ![1, 10000, 10000]⟩ : Shape).Idx → Ideal .f32)
    (W : (⟨2, ![128, 128]⟩ : Shape).Idx → Ideal .f32) (bias : (⟨1, ![128]⟩ : Shape).Idx → Ideal .f32)
    (a : (⟨1, ![1]⟩ : Shape).Idx → Ideal .f32) : (⟨2, ![10000, 128]⟩ : Shape).Idx → Ideal .f32 :=
  fun i => act (a (ix1 (0 : Fin 1))) (agg seq adj W bias (i 0) (i 1))

end Cert.GraphConv

end
-- ==== Proof.Payload.lean ====
/-
  The two values the kernel body stores, read at an index.

  At the first grid point the body stores the feature table into its carried buffer: a matrix product of the
  10000 × 128 feature block with the 128 × 128 weight block, contracting the SECOND axis of both, so entry
  `(n, o)` is `∑ d, x (n, d) * w (o, d)`.

  At every grid point it stores one 200 × 128 strip of the result: the product of the 200 × 10000 adjacency strip
  with the table it finds in the carried buffer, plus the bias row broadcast down the strip, passed through the
  parametric rectifier whose slope is the one entry of the 1 × 1 block: entry `(r, o)` is
  `act a ((∑ k, s (r, k) * f (k, o)) + b (0, o))`.

  Both products accumulate into a zero block, so each is the bare sum.
-/
import proofs.«179306_g38981123178606_cont_sun_m_742_18_alg».proof.Proof.Gen.KernelIdeal.Skeleton
import proofs.«179306_g38981123178606_cont_sun_m_742_18_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.GraphConv

/-! ## The feature product's operand indices: both operands are read along their second axis -/

theorem featL0 (j : S10000x128.Idx) (q : dot_S10000x128_S128x128_S10000x128_1_1_0_0_n_n.contr.Idx) :
    (dot_S10000x128_S128x128_S10000x128_1_1_0_0_n_n.lhsIdx j q 0).val = (j 0).val := by
  unfold DotDims.lhsIdx
  rw [dif_neg (show ¬(0 : Fin S10000x128.rank) ∈ dot_S10000x128_S128x128_S10000x128_1_1_0_0_n_n.lhsBatch by decide),
    dif_pos (show (0 : Fin S10000x128.rank) ∈ dot_S10000x128_S128x128_S10000x128_1_1_0_0_n_n.lhsNonContracting by decide)]
  rfl

theorem featL1 (j : S10000x128.Idx) (q : dot_S10000x128_S128x128_S10000x128_1_1_0_0_n_n.contr.Idx) :
    (dot_S10000x128_S128x128_S10000x128_1_1_0_0_n_n.lhsIdx j q 1).val = (q ⟨0, by decide⟩).val :=
  dot_S10000x128_S128x128_S10000x128_1_1_0_0_n_n.lhsIdx_val_of_single rfl j q

theorem featR0 (j : S10000x128.Idx) (q : dot_S10000x128_S128x128_S10000x128_1_1_0_0_n_n.contr.Idx) :
    (dot_S10000x128_S128x128_S10000x128_1_1_0_0_n_n.rhsIdx j q 0).val = (j 1).val := by
  unfold DotDims.rhsIdx
  rw [dif_neg (show ¬(0 : Fin S128x128.rank) ∈ dot_S10000x128_S128x128_S10000x128_1_1_0_0_n_n.rhsBatch by decide),
    dif_pos (show (0 : Fin S128x128.rank) ∈ dot_S10000x128_S128x128_S10000x128_1_1_0_0_n_n.rhsNonContracting by decide)]
  rfl

theorem featR1 (j : S10000x128.Idx) (q : dot_S10000x128_S128x128_S10000x128_1_1_0_0_n_n.contr.Idx) :
    (dot_S10000x128_S128x128_S10000x128_1_1_0_0_n_n.rhsIdx j q 1).val = (q ⟨0, by decide⟩).val :=
  dot_S10000x128_S128x128_S10000x128_1_1_0_0_n_n.rhsIdx_val_of_single rfl j q

/-- The feature table the first grid point stores, at `(n, o)`. -/
theorem table_apply (x : FVec Ideal S10000x128 .f32) (w : FVec Ideal S128x128 .f32) (n : Fin 10000) (o : Fin 128) :
    k0_pay1 (F := Ideal) x w (ix2 n o) = ∑ d : Fin 128, x (ix2 n d) * w (ix2 o d) := by
  unfold k0_pay1
  rw [shapeCast_self, shapeCast_self]
  refine (Ideal.matmul_constant_zero_apply dot_S10000x128_S128x128_S10000x128_1_1_0_0_n_n none x w (ix2 n o)).trans ?_
  rw [← Equiv.sum_comp (contrEquiv1 dot_S10000x128_S128x128_S10000x128_1_1_0_0_n_n 128 rfl rfl).symm]
  refine Finset.sum_congr rfl fun d _ => ?_
  have hk := contrEquiv1_symm_val dot_S10000x128_S128x128_S10000x128_1_1_0_0_n_n 128 rfl rfl d
  have el : dot_S10000x128_S128x128_S10000x128_1_1_0_0_n_n.lhsIdx (ix2 n o)
      ((contrEquiv1 dot_S10000x128_S128x128_S10000x128_1_1_0_0_n_n 128 rfl rfl).symm d) = ix2 n d :=
    funext fun a => Fin.ext (by
      match a with
      | ⟨0, _⟩ => exact featL0 _ _
      | ⟨1, _⟩ => exact (featL1 _ _).trans hk)
  have er : dot_S10000x128_S128x128_S10000x128_1_1_0_0_n_n.rhsIdx (ix2 n o)
      ((contrEquiv1 dot_S10000x128_S128x128_S10000x128_1_1_0_0_n_n 128 rfl rfl).symm d) = ix2 o d :=
    funext fun a => Fin.ext (by
      match a with
      | ⟨0, _⟩ => exact featR0 _ _
      | ⟨1, _⟩ => exact (featR1 _ _).trans hk)
  rw [el, er]

/-! ## The aggregation product's operand indices: a plain rows-by-columns product -/

theorem aggL0 (j : S200x128.Idx) (q : dot_S200x10000_S10000x128_S200x128_1_0_0_1_n_n.contr.Idx) :
    (dot_S200x10000_S10000x128_S200x128_1_0_0_1_n_n.lhsIdx j q 0).val = (j 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl

theorem aggL1 (j : S200x128.Idx) (q : dot_S200x10000_S10000x128_S200x128_1_0_0_1_n_n.contr.Idx) :
    (dot_S200x10000_S10000x128_S200x128_1_0_0_1_n_n.lhsIdx j q 1).val = (q ⟨0, by decide⟩).val :=
  dot_S200x10000_S10000x128_S200x128_1_0_0_1_n_n.lhsIdx_val_of_single rfl j q

theorem aggR0 (j : S200x128.Idx) (q : dot_S200x10000_S10000x128_S200x128_1_0_0_1_n_n.contr.Idx) :
    (dot_S200x10000_S10000x128_S200x128_1_0_0_1_n_n.rhsIdx j q 0).val = (q ⟨0, by decide⟩).val :=
  dot_S200x10000_S10000x128_S200x128_1_0_0_1_n_n.rhsIdx_val_of_single rfl j q

theorem aggR1 (j : S200x128.Idx) (q : dot_S200x10000_S10000x128_S200x128_1_0_0_1_n_n.contr.Idx) :
    (dot_S200x10000_S10000x128_S200x128_1_0_0_1_n_n.rhsIdx j q 1).val = (j 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- The strip's product with the table, at `(r, o)`. -/
theorem strip_product_apply (s : FVec Ideal S200x10000 .f32) (f : FVec Ideal S10000x128 .f32) (r : Fin 200) (o : Fin 128) :
    matmul dot_S200x10000_S10000x128_S200x128_1_0_0_1_n_n none s f (constant (F := Ideal) S200x128 .f32 0x00000000#32) (ix2 r o)
      = ∑ k : Fin 10000, s (ix2 r k) * f (ix2 k o) := by
  refine (Ideal.matmul_constant_zero_apply dot_S200x10000_S10000x128_S200x128_1_0_0_1_n_n none s f (ix2 r o)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r o)
      ((contrEquiv1 dot_S200x10000_S10000x128_S200x128_1_0_0_1_n_n 10000 rfl rfl).symm k) = ix2 r k :=
    funext fun a => Fin.ext (by
      match a with
      | ⟨0, _⟩ => exact aggL0 _ _
      | ⟨1, _⟩ => exact (aggL1 _ _).trans hk)
  have er : dot_S200x10000_S10000x128_S200x128_1_0_0_1_n_n.rhsIdx (ix2 r o)
      ((contrEquiv1 dot_S200x10000_S10000x128_S200x128_1_0_0_1_n_n 10000 rfl rfl).symm k) = ix2 k o :=
    funext fun a => Fin.ext (by
      match a with
      | ⟨0, _⟩ => exact (aggR0 _ _).trans hk
      | ⟨1, _⟩ => exact aggR1 _ _)
  rw [el, er]

/-- The bias row broadcast down the strip reads row 0. -/
theorem bias_row_apply (b : FVec Ideal S1x128 .f32) (r : Fin 200) (o : Fin 128) :
    broadcastTo S200x128 b broadcasts_S1x128_S200x128 (ix2 r o) = b (ix2 (0 : Fin 1) o) :=
  broadcastTo_apply b broadcasts_S1x128_S200x128 (ix2 r o) (ix2 (0 : Fin 1) o) (fun a => match a with
    | ⟨0, _⟩ => by show 0 = if (1 : Nat) = 1 then 0 else r.val; rw [if_pos rfl]
    | ⟨1, _⟩ => by show o.val = if (128 : Nat) = 1 then 0 else o.val; rw [if_neg (by decide)])

/-- The slope is the one entry of its block. -/
theorem slope_apply (a : FVec Ideal S1x1 .f32) :
    extractAt ![0, 0] a inpos_S1x1_p0_0 = a (ix2 (0 : Fin 1) (0 : Fin 1)) :=
  congrArg a (funext fun d => Fin.ext (by
    match d with
    | ⟨0, _⟩ => rfl
    | ⟨1, _⟩ => rfl))

/-- The strip of the result a grid point stores, at `(r, o)`. -/
theorem strip_apply (s : FVec Ideal S200x10000 .f32) (f : FVec Ideal S10000x128 .f32) (b : FVec Ideal S1x128 .f32)
    (a : FVec Ideal S1x1 .f32) (r : Fin 200) (o : Fin 128) :
    k0_pay2 (F := Ideal) s f b a (ix2 r o)
      = act (a (ix2 (0 : Fin 1) (0 : Fin 1))) ((∑ k : Fin 10000, s (ix2 r k) * f (ix2 k o)) + b (ix2 (0 : Fin 1) o)) := by
  unfold k0_pay2
  rw [shapeCast_self, shapeCast_self]
  show Scalar.select (Ideal.cmp .ogt
        (matmul dot_S200x10000_S10000x128_S200x128_1_0_0_1_n_n none s f (constant (F := Ideal) S200x128 .f32 0x00000000#32) (ix2 r o)
          + broadcastTo S200x128 b broadcasts_S1x128_S200x128 (ix2 r o)) (Ideal.ofBits .f32 0x00000000#32))
      (matmul dot_S200x10000_S10000x128_S200x128_1_0_0_1_n_n none s f (constant (F := Ideal) S200x128 .f32 0x00000000#32) (ix2 r o)
          + broadcastTo S200x128 b broadcasts_S1x128_S200x128 (ix2 r o))
      (extractAt ![0, 0] a inpos_S1x1_p0_0
        * (matmul dot_S200x10000_S10000x128_S200x128_1_0_0_1_n_n none s f (constant (F := Ideal) S200x128 .f32 0x00000000#32) (ix2 r o)
          + broadcastTo S200x128 b broadcasts_S1x128_S200x128 (ix2 r o))) = _
  rw [strip_product_apply, bias_row_apply, slope_apply]
  rfl

/-! ## The stored values in terms of the argument arrays

  Stated over any blocks that hold the arguments' entries at the coordinates the sums read: which block sits where
  in which array is settled elsewhere. -/

/-- A feature block holding `seq`'s rows and a weight block holding `W` make the stored table `feat`. -/
theorem table_is_feat (seq : (⟨3, ![1, 10000, 128]⟩ : Shape).Idx → Ideal .f32) (W : (⟨2, ![128, 128]⟩ : Shape).Idx → Ideal .f32)
    (x : FVec Ideal S10000x128 .f32) (w : FVec Ideal S128x128 .f32)
    (hx : ∀ (n : Fin 10000) (d : Fin 128), x (ix2 n d) = seq (ix3 (0 : Fin 1) n d))
    (hw : ∀ (o d : Fin 128), w (ix2 o d) = W (ix2 o d)) (n : Fin 10000) (o : Fin 128) :
    k0_pay1 (F := Ideal) x w (ix2 n o) = feat seq W n o := by
  rw [table_apply]
  unfold feat
  exact Finset.sum_congr rfl fun d _ => by rw [hx, hw]

/-- An adjacency strip holding row `n` of `adj` in its row `r`, a table holding `feat`'s column `o`, a bias row and a
    slope block holding their arguments make entry `(r, o)` of the stored strip the layer's entry `(n, o)`. -/
theorem strip_is_layer (seq : (⟨3, ![1, 10000, 128]⟩ : Shape).Idx → Ideal .f32)
    (adj : (⟨3, ![1, 10000, 10000]⟩ : Shape).Idx → Ideal .f32) (W : (⟨2, ![128, 128]⟩ : Shape).Idx → Ideal .f32)
    (bias : (⟨1, ![128]⟩ : Shape).Idx → Ideal .f32) (a : (⟨1, ![1]⟩ : Shape).Idx → Ideal .f32)
    (s : FVec Ideal S200x10000 .f32) (f : FVec Ideal S10000x128 .f32) (b : FVec Ideal S1x128 .f32) (sl : FVec Ideal S1x1 .f32)
    (n : Fin 10000) (r : Fin 200) (o : Fin 128)
    (hs : ∀ k : Fin 10000, s (ix2 r k) = adj (ix3 (0 : Fin 1) n k))
    (hf : ∀ k : Fin 10000, f (ix2 k o) = feat seq W k o)
    (hb : b (ix2 (0 : Fin 1) o) = bias (ix1 o))
    (ha : sl (ix2 (0 : Fin 1) (0 : Fin 1)) = a (ix1 (0 : Fin 1))) :
    k0_pay2 (F := Ideal) s f b sl (ix2 r o) = act (a (ix1 (0 : Fin 1))) (agg seq adj W bias n o) := by
  rw [strip_apply, ha, hb]
  unfold agg
  refine congrArg (fun z => act (a (ix1 (0 : Fin 1))) (z + bias (ix1 o))) ?_
  exact Finset.sum_congr rfl fun k _ => by rw [hs, hf]

end Cert.KernelIdeal.Payload

end
-- ==== Proof.HostSide.lean ====
/-
  The arrays the kernel's region finds, in terms of the arguments.

  Before the region the program only reshapes: the features `[1, 10000, 128] → [10000, 128]`, the adjacency
  `[1, 10000, 10000] → [10000, 10000]`, the bias `[128] → [1, 128]` and the slope `[1] → [1, 1]`; the weight matrix is
  passed as it is. Dropping or adding a leading axis of extent one keeps every other coordinate, so entry `(n, d)` of the
  reshaped features is entry `(0, n, d)` of the argument, and so on.
-/
import proofs.«179306_g38981123178606_cont_sun_m_742_18_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.HostSide

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-! ## The four reshaped arrays, whole -/

theorem features_found (c : Dev nD) :
    (V m c main_v0 : S10000x128.Idx → Elt F .f32)
      = shapeCast S10000x128 (m ((c : Thread nD τ).loc main_arg0)) shapeCasts_S1x10000x128_S10000x128 := by
  show StableHlo.after hostOps0 (fun b => m (c, b)) (Proc.devRef .tc main_v0) = _
  after_results
  rfl

theorem adjacency_found (c : Dev nD) :
    (V m c main_v1 : S10000x10000.Idx → Elt F .f32)
      = shapeCast S10000x10000 (m ((c : Thread nD τ).loc main_arg1)) shapeCasts_S1x10000x10000_S10000x10000 := by
  show StableHlo.after hostOps0 (fun b => m (c, b)) (Proc.devRef .tc main_v1) = _
  after_results
  rfl

theorem bias_found (c : Dev nD) :
    (V m c main_v2 : S1x128.Idx → Elt F .f32)
      = shapeCast S1x128 (m ((c : Thread nD τ).loc main_arg3)) shapeCasts_S128_S1x128 := by
  show StableHlo.after hostOps0 (fun b => m (c, b)) (Proc.devRef .tc main_v2) = _
  after_results
  rfl

theorem slope_found (c : Dev nD) :
    (V m c main_v3 : S1x1.Idx → Elt F .f32)
      = shapeCast S1x1 (m ((c : Thread nD τ).loc main_arg4)) shapeCasts_S1_S1x1 := by
  show StableHlo.after hostOps0 (fun b => m (c, b)) (Proc.devRef .tc main_v3) = _
  after_results
  rfl

/-! ## The same, at an index -/

/-- Entry `(n, d)` of the reshaped features is entry `(0, n, d)` of the argument. -/
theorem features_at (c : Dev nD) (n : Fin 10000) (d : Fin 128) :
    (V m c main_v0 : S10000x128.Idx → Elt F .f32) (ix2 n d) = m ((c : Thread nD τ).loc main_arg0) (ix3 (0 : Fin 1) n d) := by
  refine (congrFun (features_found m c) (ix2 n d)).trans ?_
  refine (shapeCast_dropUnit_apply ![10000, 128] _ _ (ix2 n d)).trans ?_
  refine congrArg (m ((c : Thread nD τ).loc main_arg0)) ?_
  funext a
  match a with
  | ⟨0, _⟩ => rfl
  | ⟨1, _⟩ => rfl
  | ⟨2, _⟩ => rfl

/-- Entry `(n, k)` of the reshaped adjacency is entry `(0, n, k)` of the argument. -/
theorem adjacency_at (c : Dev nD) (n k : Fin 10000) :
    (V m c main_v1 : S10000x10000.Idx → Elt F .f32) (ix2 n k) = m ((c : Thread nD τ).loc main_arg1) (ix3 (0 : Fin 1) n k) := by
  refine (congrFun (adjacency_found m c) (ix2 n k)).trans ?_
  refine (shapeCast_dropUnit_apply ![10000, 10000] _ _ (ix2 n k)).trans ?_
  refine congrArg (m ((c : Thread nD τ).loc main_arg1)) ?_
  funext a
  match a with
  | ⟨0, _⟩ => rfl
  | ⟨1, _⟩ => rfl
  | ⟨2, _⟩ => rfl

/-- Entry `(0, o)` of the bias row is entry `o` of the argument. -/
theorem bias_at (c : Dev nD) (o : Fin 128) :
    (V m c main_v2 : S1x128.Idx → Elt F .f32) (ix2 (0 : Fin 1) o) = m ((c : Thread nD τ).loc main_arg3) (ix1 o) := by
  refine (congrFun (bias_found m c) (ix2 (0 : Fin 1) o)).trans ?_
  refine (shapeCast_addUnit_apply ![128] _ _ (ix2 (0 : Fin 1) o)).trans ?_
  refine congrArg (m ((c : Thread nD τ).loc main_arg3)) ?_
  funext a
  match a with
  | ⟨0, _⟩ => rfl

/-- The one entry of the slope block is the one entry of the argument. -/
theorem slope_at (c : Dev nD) :
    (V m c main_v3 : S1x1.Idx → Elt F .f32) (ix2 (0 : Fin 1) (0 : Fin 1)) = m ((c : Thread nD τ).loc main_arg4) (ix1 (0 : Fin 1)) := by
  refine (congrFun (slope_found m c) (ix2 (0 : Fin 1) (0 : Fin 1))).trans ?_
  refine (shapeCast_addUnit_apply ![1] _ _ (ix2 (0 : Fin 1) (0 : Fin 1))).trans ?_
  refine congrArg (m ((c : Thread nD τ).loc main_arg4)) ?_
  funext a
  match a with
  | ⟨0, _⟩ => rfl

/-- The weight matrix is staged as the argument holds it. -/
theorem weight_at (c : Dev nD) (o d : Fin 128) :
    (V m c main_arg2 : S128x128.Idx → Elt F .f32) (ix2 o d) = m ((c : Thread nD τ).loc main_arg2) (ix2 o d) :=
  congrFun (V_main_arg2 m c) (ix2 o d)

end Cert.KernelIdeal.HostSide

end
-- ==== Proof.Blocks.lean ====
/-
  Each input window's block at a grid point, read off the array the region finds.

  Four windows stage their whole array at every point (the features, the weight matrix, the bias row, the slope): their
  block index is (0, 0) throughout, so an entry of the block is the same entry of the array. The adjacency window
  stages 200 rows per point: at point `t` its block index is `(t, 0)`, so row `r` of the block is row `200 * t + r` of
  the array. (A block's coordinate in its array is always block index × block size + the coordinate inside the block.)
-/
import proofs.«179306_g38981123178606_cont_sun_m_742_18_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The windows' block indices, decided once over the 50 grid points: the four resident windows sit at block (0, 0), the
    adjacency window and the output window at block `(t, 0)`. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block is the whole reshaped feature array. -/
theorem features_block (c : Dev nD) (t : Fin cfg0.N) (n : Fin 10000) (d : Fin 128) :
    (iblk m c 0 t : Vec F S10000x128 .f32) (ix2 n d) = (V m c main_v0 : S10000x128.Idx → Elt F .f32) (ix2 n d) := by
  unfold iblk
  rw [View.read_apply]
  show (V m c main_v0 : S10000x128.Idx → Elt F .f32) _ = _
  refine congrArg (V m c main_v0 : S10000x128.Idx → Elt F .f32) ?_
  obtain ⟨e00, e01, e10, e11, e20, e21, e30, e31, e40, e41, -, -⟩ := index_facts t
  funext a
  apply Fin.ext
  match a with
  | ⟨0, _⟩ => show win0_0.index t (0 : Fin 2) * 10000 + 1 * n.val = n.val; rw [e00]; omega
  | ⟨1, _⟩ => show win0_0.index t (1 : Fin 2) * 128 + 1 * d.val = d.val; rw [e01]; omega

/-- The weight block is the whole weight matrix. -/
theorem weight_block (c : Dev nD) (t : Fin cfg0.N) (o d : Fin 128) :
    (iblk m c 1 t : Vec F S128x128 .f32) (ix2 o d) = (V m c main_arg2 : S128x128.Idx → Elt F .f32) (ix2 o d) := by
  unfold iblk
  rw [View.read_apply]
  show (V m c main_arg2 : S128x128.Idx → Elt F .f32) _ = _
  refine congrArg (V m c main_arg2 : S128x128.Idx → Elt F .f32) ?_
  obtain ⟨e00, e01, e10, e11, e20, e21, e30, e31, e40, e41, -, -⟩ := index_facts t
  funext a
  apply Fin.ext
  match a with
  | ⟨0, _⟩ => show win0_1.index t (0 : Fin 2) * 128 + 1 * o.val = o.val; rw [e10]; omega
  | ⟨1, _⟩ => show win0_1.index t (1 : Fin 2) * 128 + 1 * d.val = d.val; rw [e11]; omega

/-- The bias block is the whole bias row. -/
theorem bias_block (c : Dev nD) (t : Fin cfg0.N) (o : Fin 128) :
    (iblk m c 2 t : Vec F S1x128 .f32) (ix2 (0 : Fin 1) o) = (V m c main_v2 : S1x128.Idx → Elt F .f32) (ix2 (0 : Fin 1) o) := by
  unfold iblk
  rw [View.read_apply]
  show (V m c main_v2 : S1x128.Idx → Elt F .f32) _ = _
  refine congrArg (V m c main_v2 : S1x128.Idx → Elt F .f32) ?_
  obtain ⟨e00, e01, e10, e11, e20, e21, e30, e31, e40, e41, -, -⟩ := index_facts t
  funext a
  apply Fin.ext
  match a with
  | ⟨0, _⟩ => show win0_2.index t (0 : Fin 2) * 1 + 1 * 0 = 0; rw [e20]
  | ⟨1, _⟩ => show win0_2.index t (1 : Fin 2) * 128 + 1 * o.val = o.val; rw [e21]; omega

/-- The slope block is the whole 1 × 1 slope array. -/
theorem slope_block (c : Dev nD) (t : Fin cfg0.N) :
    (iblk m c 3 t : Vec F S1x1 .f32) (ix2 (0 : Fin 1) (0 : Fin 1)) = (V m c main_v3 : S1x1.Idx → Elt F .f32) (ix2 (0 : Fin 1) (0 : Fin 1)) := by
  unfold iblk
  rw [View.read_apply]
  show (V m c main_v3 : S1x1.Idx → Elt F .f32) _ = _
  refine congrArg (V m c main_v3 : S1x1.Idx → Elt F .f32) ?_
  obtain ⟨e00, e01, e10, e11, e20, e21, e30, e31, e40, e41, -, -⟩ := index_facts t
  funext a
  apply Fin.ext
  match a with
  | ⟨0, _⟩ => show win0_3.index t (0 : Fin 2) * 1 + 1 * 0 = 0; rw [e30]
  | ⟨1, _⟩ => show win0_3.index t (1 : Fin 2) * 1 + 1 * 0 = 0; rw [e31]

/-- Row `r` of the adjacency strip at point `t` is row `200 * t + r` of the reshaped adjacency. -/
theorem adjacency_block (c : Dev nD) (t : Fin cfg0.N) (r : Fin 200) (k : Fin 10000) (n : Fin 10000)
    (hn : n.val = 200 * t.val + r.val) :
    (iblk m c 4 t : Vec F S200x10000 .f32) (ix2 r k) = (V m c main_v1 : S10000x10000.Idx → Elt F .f32) (ix2 n k) := by
  unfold iblk
  rw [View.read_apply]
  show (V m c main_v1 : S10000x10000.Idx → Elt F .f32) _ = _
  refine congrArg (V m c main_v1 : S10000x10000.Idx → Elt F .f32) ?_
  obtain ⟨e00, e01, e10, e11, e20, e21, e30, e31, e40, e41, -, -⟩ := index_facts t
  funext a
  apply Fin.ext
  match a with
  | ⟨0, _⟩ => show win0_4.index t (0 : Fin 2) * 200 + 1 * r.val = n.val; rw [e40, hn]; omega
  | ⟨1, _⟩ => show win0_4.index t (1 : Fin 2) * 10000 + 1 * k.val = k.val; rw [e41]; omega

end Cert.KernelIdeal.Blocks

end
-- ==== Proof.Value.lean ====
/-
  The kernel's result array is the layer of Spec.lean.

  The table the first grid point stores is `feat` of the feature and weight arguments. Point `t` writes back, as rows
  `200 * t … 200 * t + 199` of the 10000 × 128 output, the rows of the layer with those numbers; the 50 strips tile
  the output (row `n` is in the strip of point `n / 200`), so after the last write-back the output is the whole layer.
  The one host operation after the region adds a leading axis of extent one, which gives the result its final shape.
-/
import proofs.«179306_g38981123178606_cont_sun_m_742_18_alg».proof.Proof.Carried
import proofs.«179306_g38981123178606_cont_sun_m_742_18_alg».proof.Proof.Payload
import proofs.«179306_g38981123178606_cont_sun_m_742_18_alg».proof.Proof.HostSide
import proofs.«179306_g38981123178606_cont_sun_m_742_18_alg».proof.Proof.Blocks
import Idealize.ShloMosaic.Lib.StableHlo.Run

noncomputable section

namespace Cert.KernelIdeal.LayerValue

open Cert.KernelIdeal Cert.KernelIdeal.Gen
open Cert.KernelIdeal.Carried Cert.KernelIdeal.Payload Cert.KernelIdeal.HostSide Cert.KernelIdeal.Blocks Cert.GraphConv
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The layer of the launch arguments, as the 10000 × 128 matrix the region writes … -/
abbrev matrix (c : Dev nD) : S10000x128.Idx → Ideal .f32 := layer2 (m ((c : Thread nD τ).loc main_arg0)) (m ((c : Thread nD τ).loc main_arg1)) (m ((c : Thread nD τ).loc main_arg2)) (m ((c : Thread nD τ).loc main_arg3)) (m ((c : Thread nD τ).loc main_arg4))

/-- … and in the result's final shape. -/
abbrev result (c : Dev nD) : S1x10000x128.Idx → Ideal .f32 := layer (m ((c : Thread nD τ).loc main_arg0)) (m ((c : Thread nD τ).loc main_arg1)) (m ((c : Thread nD τ).loc main_arg2)) (m ((c : Thread nD τ).loc main_arg3)) (m ((c : Thread nD τ).loc main_arg4))

/-- The table in the carried buffer is `feat` of the feature and weight arguments. -/
theorem table_eq (c : Dev nD) (k : Fin 10000) (o : Fin 128) :
    table m c (ix2 k o) = feat (m ((c : Thread nD τ).loc main_arg0)) (m ((c : Thread nD τ).loc main_arg2)) k o := by
  unfold table
  exact table_is_feat (m ((c : Thread nD τ).loc main_arg0)) (m ((c : Thread nD τ).loc main_arg2)) (iblk m c 0 first) (iblk m c 1 first)
    (fun n d => (features_block m c first n d).trans (features_at m c n d))
    (fun o d => (weight_block m c first o d).trans (weight_at m c o d)) k o

/-- What point `t` writes back is its strip of the layer. -/
theorem written_back (c : Dev nD) (t : Fin cfg0.N) :
    (dats m 0 c).flushed 5 t = ((cfg0.win 5).blk t).view.read (Elt Ideal) (matrix m c) := by
  show (cfg0.win 5).cut (grid0.coords t) ((dats m 0 c).after 5 t) = _
  rw [after0_5, strip_eq]
  funext y
  obtain ⟨r, o, rfl⟩ : ∃ (r : Fin 200) (o : Fin 128), y = ix2 r o := ⟨y 0, y 1, eq_ix2 y⟩
  rw [View.read_apply]
  have hN : cfg0.N = 50 := N_0
  have ht : t.val < cfg0.N := t.isLt
  have hn : 200 * t.val + r.val < 10000 := by omega
  obtain ⟨-, -, -, -, -, -, -, -, -, -, e50, e51⟩ := index_facts t
  have e : ((cfg0.win 5).blk t).view.emb (ix2 r o) = ix2 (⟨200 * t.val + r.val, hn⟩ : Fin 10000) o := by
    funext a
    apply Fin.ext
    match a with
    | ⟨0, _⟩ => show win0_5.index t (0 : Fin 2) * 200 + 1 * r.val = 200 * t.val + r.val; rw [e50]; omega
    | ⟨1, _⟩ => show win0_5.index t (1 : Fin 2) * 128 + 1 * o.val = o.val; rw [e51]; omega
  rw [e]
  show k0_pay2 (F := Ideal) (iblk m c 4 t) (table m c) (iblk m c 2 t) (iblk m c 3 t) (ix2 r o)
    = act ((m ((c : Thread nD τ).loc main_arg4)) (ix1 (0 : Fin 1))) (agg (m ((c : Thread nD τ).loc main_arg0)) (m ((c : Thread nD τ).loc main_arg1)) (m ((c : Thread nD τ).loc main_arg2)) (m ((c : Thread nD τ).loc main_arg3)) ⟨200 * t.val + r.val, hn⟩ o)
  exact strip_is_layer (m ((c : Thread nD τ).loc main_arg0)) (m ((c : Thread nD τ).loc main_arg1)) (m ((c : Thread nD τ).loc main_arg2)) (m ((c : Thread nD τ).loc main_arg3)) (m ((c : Thread nD τ).loc main_arg4)) (iblk m c 4 t) (table m c) (iblk m c 2 t) (iblk m c 3 t) ⟨200 * t.val + r.val, hn⟩ r o
    (fun k => (adjacency_block m c t r k ⟨200 * t.val + r.val, hn⟩ rfl).trans (adjacency_at m c ⟨200 * t.val + r.val, hn⟩ k))
    (fun k => table_eq m c k o)
    ((bias_block m c t o).trans (bias_at m c o))
    ((slope_block m c t).trans (slope_at m c))

/-- An entry of the output is in point `t`'s strip iff its row lies in the strip's 200 rows. -/
theorem mem_strip (t : Fin cfg0.N) (i : S10000x128.Idx) :
    i ∈ ((cfg0.win 5).blk t).view.set ↔ ∀ a : Fin 2, win0_5.index t a * S200x128.size a ≤ (i a).val
      ∧ (i a).val < win0_5.index t a * S200x128.size a + S200x128.size a := by
  show i ∈ ((View.whole main_v4).slice (win0_5.rect t)).set ↔ _
  rw [View.set_slice_whole, Rect.mem_set_unit]
  exact Iff.rfl

/-- The 50 strips tile the output: row `n` is in the strip of point `n / 200`. -/
theorem covered (i : S10000x128.Idx) :
    ∃ t : Fin cfg0.N, (cfg0.win 5).flush t = true ∧ i ∈ ((cfg0.win 5).blk t).view.set := by
  have hN : cfg0.N = 50 := N_0
  have hi0 : (i 0).val < 10000 := (i 0).isLt
  have hi1 : (i 1).val < 128 := (i 1).isLt
  obtain ⟨t, ht⟩ : ∃ t : Fin cfg0.N, t.val = (i 0).val / 200 := ⟨⟨(i 0).val / 200, by rw [hN]; omega⟩, rfl⟩
  refine ⟨t, flush0_5 t, ?_⟩
  rw [mem_strip]
  obtain ⟨-, -, -, -, -, -, -, -, -, -, e50, e51⟩ := index_facts t
  intro a
  match a with
  | ⟨0, _⟩ =>
    show win0_5.index t (0 : Fin 2) * 200 ≤ (i 0).val ∧ (i 0).val < win0_5.index t (0 : Fin 2) * 200 + 200
    rw [e50, ht]; omega
  | ⟨1, _⟩ =>
    show win0_5.index t (1 : Fin 2) * 128 ≤ (i 1).val ∧ (i 1).val < win0_5.index t (1 : Fin 2) * 128 + 128
    rw [e51]; omega

/-- After the last write-back the region's output array is the layer. -/
theorem final (c : Dev nD) : (dats m 0 c).arrAt 5 cfg0.N = matrix m c :=
  (dats m 0 c).arrAt_eq_of_cover 5 (matrix m c) (fun t _ => written_back m c t) covered

/-- The result, in its final shape: the one host operation after the region adds a leading axis of extent one to the
    region's output. -/
theorem result_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = matrix m c :=
    (Pipeline.withArrays_arr spec0 launch0.win.arr_inj c _ _ 5).trans (final m c)
  funext i
  show shapeCast S1x10000x128 (Pipeline.withArrays (cfgs 0).spec c (V0 m c) (fun w => (dats m 0 c).arrAt w (cfgs 0).N)
    (Proc.devRef .tc main_v4)) shapeCasts_S10000x128_S1x10000x128 i = _
  rw [e]
  refine (shapeCast_addUnit_apply ![10000, 128] _ _ i).trans ?_
  rfl

/-- The kernel's run, read: every weakly fair execution terminates with the result array at the layer of the launch
    arguments and the arguments unchanged. -/
theorem run : θ_run defs (onTc (τ := τ) (main (F := Ideal))) ⟨m, fun _ => 0, ρ⟩ fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.LayerValue

end
-- ==== Proof.RefValue.lean ====
/-
  The reference's result is the layer of Spec.lean, entry by entry.

  The reference contracts the feature axis of `seq` against the second axis of `W`, then (batched over the one graph)
  the column axis of `adj` against the node axis of that table, adds the bias broadcast along its last axis,
  and selects between the sum and the slope times the sum. Read at an index `(b, n, o)` each stage lands on the
  coordinates `feat`, `agg` and `act` name; the only arithmetic is that the batch coordinate of a one-graph array is 0.
-/
import proofs.«179306_g38981123178606_cont_sun_m_742_18_alg».proof.Proof.Gen.ReferenceIdeal.Read
import proofs.«179306_g38981123178606_cont_sun_m_742_18_alg».proof.Proof.Spec

noncomputable section

namespace Cert.ReferenceIdeal.RefValue

open Cert.ReferenceIdeal Cert.ReferenceIdeal.Read Idealize.ShloMosaic Idealize.ShloMosaic.ValueIdx Cert.GraphConv

variable (x0 : FVec Ideal S1x10000x128 .f32) (x1 : FVec Ideal S1x10000x10000 .f32) (x2 : FVec Ideal S128x128 .f32)
  (x3 : FVec Ideal S128 .f32) (x4 : FVec Ideal S1 .f32)

/-- The batch coordinate of an index into a one-graph array is 0. -/
theorem batch_zero (i : S1x10000x128.Idx) : (i 0).val = 0 := by
  have h : (i 0).val < 1 := (i 0).isLt
  omega

/-- The adjacency entry the second contraction reads at `(b, n, o)` and column `k`. -/
theorem adj_index (i : S1x10000x128.Idx) (k : Fin 10000) : lidx_main_v1 i k = ix3 (0 : Fin 1) (i 1) k :=
  funext fun a => Fin.ext (by
    match a with
    | ⟨0, _⟩ => exact batch_zero i
    | ⟨1, _⟩ => rfl
    | ⟨2, _⟩ => rfl)

/-- The feature-table entry `(k, o)` is read from `seq` at `(0, k, d)` … -/
theorem seq_index (i : S1x10000x128.Idx) (k : Fin 10000) (d : Fin 128) :
    lidx_main_v0 (ridx_main_v1 i k) d = ix3 (0 : Fin 1) k d :=
  funext fun a => Fin.ext (by
    match a with
    | ⟨0, _⟩ => exact batch_zero i
    | ⟨1, _⟩ => rfl
    | ⟨2, _⟩ => rfl)

/-- … and from `W` at `(o, d)`. -/
theorem w_index (i : S1x10000x128.Idx) (k : Fin 10000) (d : Fin 128) :
    ridx_main_v0 (ridx_main_v1 i k) d = ix2 (i 2) d :=
  funext fun a => Fin.ext (by
    match a with
    | ⟨0, _⟩ => rfl
    | ⟨1, _⟩ => rfl)

/-- The bias is read at the output feature. -/
theorem bias_index (i : S1x10000x128.Idx) : idx_main_v2 (idx_main_v3 i) = ix1 (i 2) :=
  funext fun a => Fin.ext (by
    match a with
    | ⟨0, _⟩ => rfl)

/-- The slope is the one entry of its array. -/
theorem slope_index (i : S1x10000x128.Idx) : idx_main_v7 (idx_main_v8 i) = ix1 (0 : Fin 1) :=
  funext fun a => Fin.ext (by
    match a with
    | ⟨0, _⟩ => rfl)

/-- The sum before the activation is `agg`. -/
theorem preact_eq (i : S1x10000x128.Idx) :
    val_main_v4 (F := Ideal) x0 x1 x2 x3 i = agg x0 x1 x2 x3 (i 1) (i 2) := by
  rw [val_main_v4_apply, val_main_v1_apply, val_main_v3_apply, val_main_v2_apply, bias_index]
  unfold agg feat
  show (∑ k : Fin 10000, _) + _ = _
  congr 1
  refine Finset.sum_congr rfl fun k _ => ?_
  rw [val_main_v0_apply, adj_index]
  congr 1
  refine Finset.sum_congr rfl fun d _ => ?_
  rw [seq_index, w_index]
  rfl

/-- The reference's last stage is the layer. -/
theorem reference_eq : val_main_v10 (F := Ideal) x0 x1 x2 x3 x4 = layer x0 x1 x2 x3 x4 := by
  funext i
  rw [val_main_v10_apply, val_main_v6_apply, val_main_v9_apply, preact_eq, val_main_v5_apply, val_main_cst_apply,
    val_main_v8_apply, val_main_v7_apply, slope_index]
  rfl

end Cert.ReferenceIdeal.RefValue

end
-- ==== Proof.lean ====
/-
  A graph-convolution layer on one graph of 10000 nodes: `out = prelu (adj · (seq · Wᵀ) + bias)`, with 128 input and
  128 output features and one shared slope for the rectifier.

  The kernel walks the 10000 × 10000 adjacency in 50 strips of 200 rows. At the first strip it also forms the
  10000 × 128 feature table `seq · Wᵀ` and keeps it in a buffer of its own for the remaining strips; each strip is then
  multiplied with that table, the bias row is added and the rectifier applied, and the 200 finished rows are written
  out. Before and after the strips the program only adds or drops an axis of extent one. The reference forms the
  same table by one contraction over the feature axis, the same aggregate by one contraction over the node axis,
  adds the broadcast bias and selects between the sum and the slope times the sum.

  Over the extended reals both are, entry by entry, the function `layer` of Spec.lean: the two nested sums are grouped
  the same way on both sides (the table first, then the aggregate), so nothing is used beyond reading each side at an
  index and renaming the summation variables; in particular the finiteness of the inputs is never opened. The kernel
  side is read in four steps: what one run of the body stores (Pieces.lean); what the kept buffer and the output strip
  hold after each of the 50 strips, by induction on the strip (Carried.lean); where each strip's operands sit in the
  argument arrays (HostSide.lean, Blocks.lean) and what the stored values are at an index (Payload.lean); and that the
  50 written strips tile the output (Value.lean). The reference side is RefValue.lean.

  The idealization rewrote nothing, so the word-level kernel is related to its idealization by the empty list of
  rewrites; the three programs run to completion, leaving their arguments as they found them.
-/
import proofs.«179306_g38981123178606_cont_sun_m_742_18_alg».proof.Defs
import proofs.«179306_g38981123178606_cont_sun_m_742_18_alg».proof.Proof.Gen.Kernel
import proofs.«179306_g38981123178606_cont_sun_m_742_18_alg».proof.Proof.Gen.Kernel.Frame
import proofs.«179306_g38981123178606_cont_sun_m_742_18_alg».proof.Proof.Gen.KernelIdeal
import proofs.«179306_g38981123178606_cont_sun_m_742_18_alg».proof.Proof.Gen.KernelIdeal.Frame
import proofs.«179306_g38981123178606_cont_sun_m_742_18_alg».proof.Proof.Gen.ReferenceIdeal
import proofs.«179306_g38981123178606_cont_sun_m_742_18_alg».proof.Proof.Gen.ReferenceIdeal.Run
import proofs.«179306_g38981123178606_cont_sun_m_742_18_alg».proof.Proof.Gen.ReferenceIdeal.Read
import proofs.«179306_g38981123178606_cont_sun_m_742_18_alg».proof.Proof.Gen.Pre_finite_inputs
import proofs.«179306_g38981123178606_cont_sun_m_742_18_alg».proof.Proof.Value
import proofs.«179306_g38981123178606_cont_sun_m_742_18_alg».proof.Proof.RefValue
import Idealize.ShloMosaic.Adequacy
import Idealize.ShloMosaic.Init

noncomputable section

namespace Cert.Proof

open Idealize.ShloMosaic Idealize.SL.Sem

/-- The word-level kernel runs to completion and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the five arguments both programs end with the layer of those arguments. -/
theorem algebraic : Cert.algebraic_KernelIdeal_ReferenceIdeal := by
  intro m ρ m' ρ' _ hagree
  refine ⟨fun c => Cert.KernelIdeal.LayerValue.result m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
